-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x256 .f32) (main_arg3 : FVec F S256 .f32) (main_arg4 : FVec F S256x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S50000x256 : Shape := ⟨2, ![50000, 256]⟩
abbrev S5000x128 : Shape := ⟨2, ![5000, 128]⟩
abbrev S5000x256 : Shape := ⟨2, ![5000, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S800000x128 : Shape := ⟨2, ![800000, 128]⟩
abbrev S1x128 : Shape := ⟨2, ![1, 128]⟩

abbrev nBuf : Space → Nat
  | .hbm => 135
  | .vmem => 10
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256x128, .f32⟩
  | 5 => ⟨S128, .f32⟩
  | 6 => ⟨S1x800000, .i32⟩
  | 7 => ⟨S800000, .i32⟩
  | 8 => ⟨S1x800000, .i32⟩
  | 9 => ⟨S800000, .i32⟩
  | 10 => ⟨S50000x256, .f32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x256, .f32⟩
  | 56 => ⟨S800000x1, .f32⟩
  | 57 => ⟨S800000x256, .f32⟩
  | 58 => ⟨S800000x256, .f32⟩
  | 59 => ⟨S_, .f32⟩
  | 60 => ⟨S50000x256, .f32⟩
  | 61 => ⟨S800000x1, .i32⟩
  | 62 => ⟨S50000x256, .f32⟩
  | 63 => ⟨S50000, .f32⟩
  | 64 => ⟨S50000x1, .f32⟩
  | 65 => ⟨S50000x256, .f32⟩
  | 66 => ⟨S50000x256, .f32⟩
  | 67 => ⟨S50000x256, .f32⟩
  | 68 => ⟨S1x256, .f32⟩
  | 69 => ⟨S50000x256, .f32⟩
  | 70 => ⟨S50000x256, .f32⟩
  | 71 => ⟨S_, .f32⟩
  | 72 => ⟨S50000x256, .f32⟩
  | 73 => ⟨S50000x256, .f32⟩
  | 74 => ⟨S50000x128, .f32⟩
  | 75 => ⟨S_, .f32⟩
  | 76 => ⟨S800000, .f32⟩
  | 77 => ⟨S_, .f32⟩
  | 78 => ⟨S50000, .f32⟩
  | 79 => ⟨S800000x1, .i32⟩
  | 80 => ⟨S50000, .f32⟩
  | 81 => ⟨S_, .f32⟩
  | 82 => ⟨S50000, .f32⟩
  | 83 => ⟨S50000, .f32⟩
  | 84 => ⟨S_, .f32⟩
  | 85 => ⟨S50000, .f32⟩
  | 86 => ⟨S50000, .i1⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000, .f32⟩
  | 110 => ⟨S800000, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S800000x1, .f32⟩
  | 121 => ⟨S800000x128, .f32⟩
  | 122 => ⟨S800000x128, .f32⟩
  | 123 => ⟨S_, .f32⟩
  | 124 => ⟨S50000x128, .f32⟩
  | 125 => ⟨S800000x1, .i32⟩
  | 126 => ⟨S50000x128, .f32⟩
  | 127 => ⟨S50000, .f32⟩
  | _ => ⟨S50000x128, .f32⟩

abbrev hbmTy0_1 (i : Nat) : BufTy := match i % 128 with
  | 0 => ⟨S50000x1, .f32⟩
  | 1 => ⟨S50000x128, .f32⟩
  | 2 => ⟨S50000x128, .f32⟩
  | 3 => ⟨S50000x128, .f32⟩
  | 4 => ⟨S1x128, .f32⟩
  | 5 => ⟨S50000x128, .f32⟩
  | 6 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_14 : Ref sig .tc := ⟨.hbm, 88, rfl⟩
abbrev main_call2_v0 : Ref sig .tc := ⟨.hbm, 89, rfl⟩
abbrev main_call2_v1 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_17 : Ref sig .tc := ⟨.hbm, 101, rfl⟩
abbrev main_v70 : Ref sig .tc := ⟨.hbm, 102, rfl⟩
abbrev main_v71 : Ref sig .tc := ⟨.hbm, 103, rfl⟩
abbrev main_c_18 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_19 : Ref sig .tc := ⟨.hbm, 111, rfl⟩
abbrev main_v78 : Ref sig .tc := ⟨.hbm, 112, rfl⟩
abbrev main_v79 : Ref sig .tc := ⟨.hbm, 113, rfl⟩
abbrev main_c_20 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_21 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S5000x128_S128x256_S5000x256_1_0_0_1_n_n_wf : DotDims.WF S5000x128 S128x256 S5000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S50000x256 : Shape := ⟨2, ![50000, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S800000x128 : Shape := ⟨2, ![800000, 128]⟩
abbrev S1x128 : Shape := ⟨2, ![1, 128]⟩

abbrev nBuf : Space → Nat
  | .hbm => 135
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256x128, .f32⟩
  | 5 => ⟨S128, .f32⟩
  | 6 => ⟨S1x800000, .i32⟩
  | 7 => ⟨S800000, .i32⟩
  | 8 => ⟨S1x800000, .i32⟩
  | 9 => ⟨S800000, .i32⟩
  | 10 => ⟨S50000x256, .f32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x256, .f32⟩
  | 56 => ⟨S800000x1, .f32⟩
  | 57 => ⟨S800000x256, .f32⟩
  | 58 => ⟨S800000x256, .f32⟩
  | 59 => ⟨S_, .f32⟩
  | 60 => ⟨S50000x256, .f32⟩
  | 61 => ⟨S800000x1, .i32⟩
  | 62 => ⟨S50000x256, .f32⟩
  | 63 => ⟨S50000, .f32⟩
  | 64 => ⟨S50000x1, .f32⟩
  | 65 => ⟨S50000x256, .f32⟩
  | 66 => ⟨S50000x256, .f32⟩
  | 67 => ⟨S50000x256, .f32⟩
  | 68 => ⟨S1x256, .f32⟩
  | 69 => ⟨S50000x256, .f32⟩
  | 70 => ⟨S50000x256, .f32⟩
  | 71 => ⟨S_, .f32⟩
  | 72 => ⟨S50000x256, .f32⟩
  | 73 => ⟨S50000x256, .f32⟩
  | 74 => ⟨S50000x128, .f32⟩
  | 75 => ⟨S_, .f32⟩
  | 76 => ⟨S800000, .f32⟩
  | 77 => ⟨S_, .f32⟩
  | 78 => ⟨S50000, .f32⟩
  | 79 => ⟨S800000x1, .i32⟩
  | 80 => ⟨S50000, .f32⟩
  | 81 => ⟨S_, .f32⟩
  | 82 => ⟨S50000, .f32⟩
  | 83 => ⟨S50000, .f32⟩
  | 84 => ⟨S_, .f32⟩
  | 85 => ⟨S50000, .f32⟩
  | 86 => ⟨S50000, .i1⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000, .f32⟩
  | 110 => ⟨S800000, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S800000x1, .f32⟩
  | 121 => ⟨S800000x128, .f32⟩
  | 122 => ⟨S800000x128, .f32⟩
  | 123 => ⟨S_, .f32⟩
  | 124 => ⟨S50000x128, .f32⟩
  | 125 => ⟨S800000x1, .i32⟩
  | 126 => ⟨S50000x128, .f32⟩
  | 127 => ⟨S50000, .f32⟩
  | _ => ⟨S50000x128, .f32⟩

abbrev hbmTy0_1 (i : Nat) : BufTy := match i % 128 with
  | 0 => ⟨S50000x1, .f32⟩
  | 1 => ⟨S50000x128, .f32⟩
  | 2 => ⟨S50000x128, .f32⟩
  | 3 => ⟨S50000x128, .f32⟩
  | 4 => ⟨S1x128, .f32⟩
  | 5 => ⟨S50000x128, .f32⟩
  | 6 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_14 : Ref sig .tc := ⟨.hbm, 88, rfl⟩
abbrev main_call2_v0 : Ref sig .tc := ⟨.hbm, 89, rfl⟩
abbrev main_call2_v1 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_17 : Ref sig .tc := ⟨.hbm, 101, rfl⟩
abbrev main_v70 : Ref sig .tc := ⟨.hbm, 102, rfl⟩
abbrev main_v71 : Ref sig .tc := ⟨.hbm, 103, rfl⟩
abbrev main_c_18 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_19 : Ref sig .tc := ⟨.hbm, 111, rfl⟩
abbrev main_v78 : Ref sig .tc := ⟨.hbm, 112, rfl⟩
abbrev main_v79 : Ref sig .tc := ⟨.hbm, 113, rfl⟩
abbrev main_c_20 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_21 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x256_S50000x256_1_0_0_1_n_n_wf : DotDims.WF S50000x128 S128x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The idealized kernel's whole run with the result kept: from any launch memory every weakly fair
  execution of the program ends, nothing faulting, with the result buffer holding what the last
  stretch of host operations leaves there (the fold of the program's segments over the launch
  memory, read at the result) and the six argument arrays as launched.

  The program is ten segments: four host operations, the first matrix-product launch, the host
  operations of the first layer, the second launch, the host operations of the second layer. Each
  host stretch maps the buffer contents at its entry to the contents after its operations; each
  launch replaces its arrays by what its write-backs leave. The library's theorem for a program of
  several launches takes these segments, the chain of their entry and exit states and the launch
  memory, and gives the final buffers at the end of the chain; the frame statement keeps only the
  arguments from that, this one keeps the result as well.
-/
import proofs.«120215_j17669495456113_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last segment boundary's contents and the
    arguments as launched. -/
theorem run : θ_run defs (onTc (τ := τ) (main (F := F))) ⟨m, fun _ => 0, ρ⟩ (fun r => ∀ c : Dev nD,
      r.2.mem ((c.tc : Thread nD τ).loc main_v98) = W10 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v98 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.Whole

end
-- ==== Proof.LibPlainMatmul.lean ====
/-
  A plain matrix product read at one entry, over the extended reals.

  For the dimension numbers of an `M × K` by `K × N` product (`DotDims.plain M K N`: the left operand
  contracted on its second axis, the right one on its first, no batch axis) the entry `(p, q)` of the
  product is `∑ k, lhs (p, k) * rhs (k, q)`: for a kernel's matrix-unit product accumulated into the zero
  splat, and for the host's `dot_general`. The contraction index of such a product has one coordinate, and
  the operands' indices at output `(p, q)` and contraction coordinate `k` are `(p, k)` and `(k, q)`.
-/
import Idealize.ShloMosaic.Lib.ValueIdx
import Idealize.ShloMosaic.PureOps.Ideal.Laws

noncomputable section

open scoped BigOperators

namespace Cert.PlainMatmul

open Idealize.ShloMosaic Idealize.ShloMosaic.ValueIdx

variable {M K N : Nat}

/-- The contraction of a plain product runs over one axis … -/
theorem contr_rank : (DotDims.plain M K N).contr.rank = 1 := rfl

/-- … of extent `K`. -/
theorem contr_size : (DotDims.plain M K N).contr.size ⟨0, Nat.one_pos⟩ = K := rfl

/-- The contraction index whose one coordinate is `k`. -/
abbrev kidx (k : Fin K) : (DotDims.plain M K N).contr.Idx :=
  (contrEquiv1 (DotDims.plain M K N) K contr_rank contr_size).symm k

/-- At output `(p, q)` and contraction coordinate `k` the left operand is read at `(p, k)`. -/
theorem lhsIdx_eq (p : Fin M) (q : Fin N) (k : Fin K) :
    (DotDims.plain M K N).lhsIdx (ix2 p q) (kidx k) = ix2 p k := by
  funext a
  refine Fin.ext ?_
  match a with
  | ⟨0, h0⟩ =>
    unfold DotDims.lhsIdx
    rw [dif_neg (show ¬(⟨0, h0⟩ : Fin (⟨2, ![M, K]⟩ : Shape).rank) ∈ (DotDims.plain M K N).lhsBatch from List.not_mem_nil),
      dif_pos (show (⟨0, h0⟩ : Fin (⟨2, ![M, K]⟩ : Shape).rank) ∈ (DotDims.plain M K N).lhsNonContracting from
        List.mem_singleton.mpr rfl)]
    rfl
  | ⟨1, _⟩ =>
    exact ((DotDims.plain M K N).lhsIdx_val_of_single (cl := 1) rfl (ix2 p q) (kidx k)).trans
      (contrEquiv1_symm_val (DotDims.plain M K N) K contr_rank contr_size k)

/-- At output `(p, q)` and contraction coordinate `k` the right operand is read at `(k, q)`. -/
theorem rhsIdx_eq (p : Fin M) (q : Fin N) (k : Fin K) :
    (DotDims.plain M K N).rhsIdx (ix2 p q) (kidx k) = ix2 k q := by
  funext a
  refine Fin.ext ?_
  match a with
  | ⟨0, _⟩ =>
    exact ((DotDims.plain M K N).rhsIdx_val_of_single (cr := 0) rfl (ix2 p q) (kidx k)).trans
      (contrEquiv1_symm_val (DotDims.plain M K N) K contr_rank contr_size k)
  | ⟨1, h1⟩ =>
    unfold DotDims.rhsIdx
    rw [dif_neg (show ¬(⟨1, h1⟩ : Fin (⟨2, ![K, N]⟩ : Shape).rank) ∈ (DotDims.plain M K N).rhsBatch from List.not_mem_nil),
      dif_pos (show (⟨1, h1⟩ : Fin (⟨2, ![K, N]⟩ : Shape).rank) ∈ (DotDims.plain M K N).rhsNonContracting from
        List.mem_singleton.mpr rfl)]
    rfl

/-- The sum over the contraction index of a plain product is the sum over its one coordinate. -/
theorem sum_contr (f : (⟨2, ![M, K]⟩ : Shape).Idx → (⟨2, ![K, N]⟩ : Shape).Idx → EReal) (p : Fin M) (q : Fin N) :
    ∑ κ : (DotDims.plain M K N).contr.Idx, f ((DotDims.plain M K N).lhsIdx (ix2 p q) κ) ((DotDims.plain M K N).rhsIdx (ix2 p q) κ)
      = ∑ k : Fin K, f (ix2 p k) (ix2 k q) := by
  rw [← Equiv.sum_comp (contrEquiv1 (DotDims.plain M K N) K contr_rank contr_size).symm]
  refine Finset.sum_congr rfl fun k _ => ?_
  rw [lhsIdx_eq p q k, rhsIdx_eq p q k]

/-- A KERNEL'S PRODUCT into the zero accumulator, at entry `(p, q)`: the sum over `k` of `lhs (p, k) * rhs (k, q)`,
    whatever the operands' formats (a change of format is the identity on the extended reals). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant (F := Ideal) ⟨2, ![M, N]⟩ .f32 0x00000000#32) (ix2 p q)
      = ∑ k : Fin K, lhs (ix2 p k) * rhs (ix2 k q) := by
  show FloatOps.matmul (DotDims.plain M K N) prec lhs rhs (constant (F := Ideal) ⟨2, ![M, N]⟩ .f32 0x00000000#32) (ix2 p q) = _
  rw [Ideal.matmul_constant_zero_apply]
  exact sum_contr (fun a b => lhs a * rhs b) p q

/-- THE HOST'S `dot_general` with the same dimension numbers, at entry `(p, q)`: the same sum. -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (DotDims.plain M K N) prec lhs rhs (ix2 p q) = ∑ k : Fin K, lhs (ix2 p k) * rhs (ix2 k q) := by
  show FloatOps.dotGeneral (DotDims.plain M K N) prec .single lhs rhs (ix2 p q) = _
  rw [Ideal.dotGeneral_apply]
  exact sum_contr (fun a b => lhs a * rhs b) p q

end Cert.PlainMatmul

end
-- ==== Proof.Dense0.lean ====
/-
  What the first matrix-product launch leaves in its result array, at the extended reals.

  The launch walks the 50000 rows of its left operand in ten blocks of 5000 rows; the right operand
  (128 x 256) is the same block at every point. At a point the body rounds both blocks to a narrower
  float format (the identity on the extended reals), multiplies them on the matrix unit into a zero
  accumulator and stores the 5000 x 256 product, which is written back as rows 5000 t .. 5000 t + 4999
  of the result. Entry (p, q) of that block is the sum over k of left (5000 t + p, k) * right (k, q):
  the same sum as entry (5000 t + p, q) of the product of the two whole arrays. The ten row blocks
  cover the result, so the result array ends as the whole product.
-/
import proofs.«120215_j17669495456113_1_alg».proof.Proof.Gen.KernelIdeal.Frame
import proofs.«120215_j17669495456113_1_alg».proof.Proof.LibPlainMatmul
import Idealize.ShloMosaic.Lib.Pipeline.Value
import Idealize.ShloMosaic.Lib.ValueIdx
import Idealize.ShloMosaic.PureOps.Ideal.Laws

noncomputable section

open scoped BigOperators

namespace Cert.KernelIdeal.Dense0

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The whole product of the launch's two operand arrays as the launch finds them. -/
def whole (c : Dev nD) : FVec Ideal ⟨2, ![50000, 256]⟩ .f32 :=
  Host.dotGeneral (F := Ideal) (φ₁ := .f32) (φ₂ := .f32) (DotDims.plain 50000 128 256) none
    (V c main_arg0 : FVec Ideal ⟨2, ![50000, 128]⟩ .f32) (V c main_arg2 : FVec Ideal ⟨2, ![128, 256]⟩ .f32)

theorem zero_offsets : (![0, 0] : Fin 2 → Nat) = fun _ => 0 := funext fun a => by fin_cases a <;> rfl

/-- The body's stored value at entry (p, q): the row p of the left block against column q of the right one. -/
theorem pay_apply (x0 : Vec Ideal S5000x128 .f32) (x1 : Vec Ideal S128x256 .f32) (p : Fin 5000) (q : Fin 256) :
    k0_pay1 (F := Ideal) x0 x1 (ix2 p q) = ∑ k : Fin 128, x0 (ix2 p k) * x1 (ix2 k q) := by
  unfold k0_pay1
  exact Cert.PlainMatmul.matmul_zero_apply (M := 5000) (K := 128) (N := 256) none
    (truncf .bf16 x0 bitsLt_bf16_f32) (truncf .bf16 x1 bitsLt_bf16_f32) p q

/-- Which block each window is on at point `t`, decided over the grid: the left operand and the result
    move down one block of rows per point, the right operand stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the left operand's block at point `t` is entry (5000 t + p, k) of the array. -/
theorem left_blk (c : Dev nD) (t : Fin cfg0.N) (p : Fin 5000) (k : Fin 128) (hp : 5000 * t.val + p.val < 50000) :
    (iblk0 V c 0 t : Vec Ideal S5000x128 .f32) (ix2 p k)
      = (V c main_arg0 : S50000x128.Idx → EReal) (ix2 (⟨5000 * t.val + p.val, hp⟩ : Fin 50000) k) := by
  obtain ⟨e0, e1, -, -, -, -⟩ := idx_facts t
  unfold iblk0
  rw [View.read_apply]
  show V c main_arg0 _ = V c main_arg0 _
  refine congrArg _ ?_
  funext a
  apply Fin.ext
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The right operand's block is the whole array at every point. -/
theorem right_blk (c : Dev nD) (t : Fin cfg0.N) (k : Fin 128) (q : Fin 256) :
    (iblk0 V c 1 t : Vec Ideal S128x256 .f32) (ix2 k q) = (V c main_arg2 : S128x256.Idx → EReal) (ix2 k q) := by
  obtain ⟨-, -, e2, e3, -, -⟩ := idx_facts t
  unfold iblk0
  rw [View.read_apply]
  show V c main_arg2 _ = V c main_arg2 _
  refine congrArg _ ?_
  funext a
  apply Fin.ext
  match a with
  | ⟨0, _⟩ => show win0_1.index t (0 : Fin 2) * 128 + 1 * k.val = k.val; rw [e2]; omega
  | ⟨1, _⟩ => show win0_1.index t (1 : Fin 2) * 256 + 1 * q.val = q.val; rw [e3]; omega

/-- WHAT POINT `t` WRITES BACK is its block of rows of the whole product. -/
theorem flushed_eq (c : Dev nD) (t : Fin cfg0.N) :
    (dat0 V c).flushed 2 t = ((cfg0.win 2).blk t).view.read (Elt Ideal) (whole V c) := by
  have hN : cfg0.N = 10 := N_0
  have ht : t.val < 10 := hN ▸ t.isLt
  obtain ⟨-, -, -, -, e4, e5⟩ := idx_facts t
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x256) zero_offsets]
  funext j
  show k0_pay1 (F := Ideal) (iblk0 V c 0 t) (iblk0 V c 1 t) j = whole V c (((cfg0.win 2).blk t).view.emb j)
  obtain ⟨p, q, rfl⟩ : ∃ (p : Fin 5000) (q : Fin 256), j = ix2 p q := ⟨j 0, j 1, eq_ix2 j⟩
  have hp : 5000 * t.val + p.val < 50000 := by have := p.isLt; omega
  have he : ((cfg0.win 2).blk t).view.emb (ix2 p q) = ix2 (⟨5000 * t.val + p.val, hp⟩ : Fin 50000) q := by
    funext a
    apply Fin.ext
    match a with
    | ⟨0, _⟩ => show win0_2.index t (0 : Fin 2) * 5000 + 1 * p.val = 5000 * t.val + p.val; rw [e4]; omega
    | ⟨1, _⟩ => show win0_2.index t (1 : Fin 2) * 256 + 1 * q.val = q.val; rw [e5]; omega
  rw [he]
  refine (pay_apply _ _ p q).trans ?_
  unfold whole
  refine Eq.trans ?_ (Cert.PlainMatmul.dotGeneral_apply (M := 50000) (K := 128) (N := 256) none _ _ _ q).symm
  exact Finset.sum_congr rfl fun k _ => by rw [left_blk V c t p k hp, right_blk V c t k q]

/-- An index of the result is in point `t`'s block iff its row is among the block's 5000 rows. -/
theorem mem_blk (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v4).slice (win0_2.rect t)).set ↔ _
  rw [View.set_slice_whole, Rect.mem_set_unit]
  exact Iff.rfl

/-- Every row of the result is in the block of the point numbered row / 5000. -/
theorem cover (i : S50000x256.Idx) :
    ∃ t : Fin cfg0.N, (cfg0.win 2).flush t = true ∧ i ∈ ((cfg0.win 2).blk t).view.set := by
  have hN : cfg0.N = 10 := N_0
  have hi0 : (i 0).val < 50000 := (i 0).isLt
  have hi1 : (i 1).val < 256 := (i 1).isLt
  have hlt : (i 0).val / 5000 < cfg0.N := by rw [hN]; omega
  obtain ⟨-, -, -, -, e4, e5⟩ := idx_facts ⟨(i 0).val / 5000, hlt⟩
  refine ⟨⟨(i 0).val / 5000, hlt⟩, flush0_2 _, ?_⟩
  rw [mem_blk]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, hlt⟩ (1 : Fin 2) * 256 ≤ (i 1).val
      ∧ (i 1).val < win0_2.index ⟨(i 0).val / 5000, hlt⟩ (1 : Fin 2) * 256 + 256
    rw [e5]
    omega

/-- THE RESULT ARRAY after the launch is the whole product of the two operand arrays as the launch finds them. -/
theorem final (c : Dev nD) : (dat0 V c).arrAt 2 cfg0.N = whole V c :=
  (dat0 V c).arrAt_eq_of_cover 2 (whole V c) (fun t _ => flushed_eq V c t) cover

end Cert.KernelIdeal.Dense0

end
-- ==== Proof.Dense1.lean ====
/-
  What the second matrix-product launch leaves in its result array, at the extended reals.

  The same shape as the first launch with the widths exchanged: the left operand (the first layer's
  output, 50000 x 256) is walked in ten blocks of 5000 rows, the right operand (256 x 128) is one block.
  At a point the body casts the left block to its own shape (the identity), rounds both blocks to a
  narrower float format (the identity on the extended reals), multiplies them into a zero accumulator
  and stores the 5000 x 128 product as rows 5000 t .. 5000 t + 4999 of the result. Entry (p, q) of
  the block is the sum over k of left (5000 t + p, k) * right (k, q), which is entry (5000 t + p, q)
  of the product of the whole arrays; the ten row blocks cover the result.
-/
import proofs.«120215_j17669495456113_1_alg».proof.Proof.Gen.KernelIdeal.Frame
import proofs.«120215_j17669495456113_1_alg».proof.Proof.LibPlainMatmul
import Idealize.ShloMosaic.Lib.Pipeline.Value
import Idealize.ShloMosaic.Lib.ValueIdx
import Idealize.ShloMosaic.PureOps.Ideal.Laws

noncomputable section

open scoped BigOperators

namespace Cert.KernelIdeal.Dense1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The whole product of the launch's two operand arrays as the launch finds them. -/
def whole (c : Dev nD) : FVec Ideal ⟨2, ![50000, 128]⟩ .f32 :=
  Host.dotGeneral (F := Ideal) (φ₁ := .f32) (φ₂ := .f32) (DotDims.plain 50000 256 128) none
    (V c main_v51 : FVec Ideal ⟨2, ![50000, 256]⟩ .f32) (V c main_arg4 : FVec Ideal ⟨2, ![256, 128]⟩ .f32)

theorem zero_offsets : (![0, 0] : Fin 2 → Nat) = fun _ => 0 := funext fun a => by fin_cases a <;> rfl

/-- The body's stored value at entry (p, q): the row p of the left block against column q of the right one. -/
theorem pay_apply (x0 : Vec Ideal S5000x256 .f32) (x1 : Vec Ideal S256x128 .f32) (p : Fin 5000) (q : Fin 128) :
    k1_pay1 (F := Ideal) x0 x1 (ix2 p q) = ∑ k : Fin 256, x0 (ix2 p k) * x1 (ix2 k q) := by
  unfold k1_pay1
  refine (Cert.PlainMatmul.matmul_zero_apply (M := 5000) (K := 256) (N := 128) none
    (truncf .bf16 (shapeCast S5000x256 x0 shapeCasts_S5000x256_S5000x256) bitsLt_bf16_f32)
    (truncf .bf16 x1 bitsLt_bf16_f32) p q).trans ?_
  rw [shapeCast_self]
  rfl

/-- Which block each window is on at point `t`, decided over the grid: the left operand and the result
    move down one block of rows per point, the right operand stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, k) of the left operand's block at point `t` is entry (5000 t + p, k) of the array. -/
theorem left_blk (c : Dev nD) (t : Fin cfg1.N) (p : Fin 5000) (k : Fin 256) (hp : 5000 * t.val + p.val < 50000) :
    (iblk1 V c 0 t : Vec Ideal S5000x256 .f32) (ix2 p k)
      = (V c main_v51 : S50000x256.Idx → EReal) (ix2 (⟨5000 * t.val + p.val, hp⟩ : Fin 50000) k) := by
  obtain ⟨e0, e1, -, -, -, -⟩ := idx_facts t
  unfold iblk1
  rw [View.read_apply]
  show V c main_v51 _ = V c main_v51 _
  refine congrArg _ ?_
  funext a
  apply Fin.ext
  match a with
  | ⟨0, _⟩ => show win1_0.index t (0 : Fin 2) * 5000 + 1 * p.val = 5000 * t.val + p.val; rw [e0]; omega
  | ⟨1, _⟩ => show win1_0.index t (1 : Fin 2) * 256 + 1 * k.val = k.val; rw [e1]; omega

/-- The right operand's block is the whole array at every point. -/
theorem right_blk (c : Dev nD) (t : Fin cfg1.N) (k : Fin 256) (q : Fin 128) :
    (iblk1 V c 1 t : Vec Ideal S256x128 .f32) (ix2 k q) = (V c main_arg4 : S256x128.Idx → EReal) (ix2 k q) := by
  obtain ⟨-, -, e2, e3, -, -⟩ := idx_facts t
  unfold iblk1
  rw [View.read_apply]
  show V c main_arg4 _ = V c main_arg4 _
  refine congrArg _ ?_
  funext a
  apply Fin.ext
  match a with
  | ⟨0, _⟩ => show win1_1.index t (0 : Fin 2) * 256 + 1 * k.val = k.val; rw [e2]; omega
  | ⟨1, _⟩ => show win1_1.index t (1 : Fin 2) * 128 + 1 * q.val = q.val; rw [e3]; omega

/-- WHAT POINT `t` WRITES BACK is its block of rows of the whole product. -/
theorem flushed_eq (c : Dev nD) (t : Fin cfg1.N) :
    (dat1 V c).flushed 2 t = ((cfg1.win 2).blk t).view.read (Elt Ideal) (whole V c) := by
  have hN : cfg1.N = 10 := N_1
  have ht : t.val < 10 := hN ▸ t.isLt
  obtain ⟨-, -, -, -, e4, e5⟩ := idx_facts t
  show (cfg1.win 2).cut (grid1.coords t) ((dat1 V c).after 2 t) = _
  rw [after1_2]
  unfold out1_2
  rw [View.canon_unit_zero zero_offsets]
  simp only [View.ld_unit_zero (S := S5000x256) zero_offsets, View.ld_unit_zero (S := S256x128) zero_offsets]
  funext j
  show k1_pay1 (F := Ideal) (iblk1 V c 0 t) (iblk1 V c 1 t) j = whole V c (((cfg1.win 2).blk t).view.emb j)
  obtain ⟨p, q, rfl⟩ : ∃ (p : Fin 5000) (q : Fin 128), j = ix2 p q := ⟨j 0, j 1, eq_ix2 j⟩
  have hp : 5000 * t.val + p.val < 50000 := by have := p.isLt; omega
  have he : ((cfg1.win 2).blk t).view.emb (ix2 p q) = ix2 (⟨5000 * t.val + p.val, hp⟩ : Fin 50000) q := by
    funext a
    apply Fin.ext
    match a with
    | ⟨0, _⟩ => show win1_2.index t (0 : Fin 2) * 5000 + 1 * p.val = 5000 * t.val + p.val; rw [e4]; omega
    | ⟨1, _⟩ => show win1_2.index t (1 : Fin 2) * 128 + 1 * q.val = q.val; rw [e5]; omega
  rw [he]
  refine (pay_apply _ _ p q).trans ?_
  unfold whole
  refine Eq.trans ?_ (Cert.PlainMatmul.dotGeneral_apply (M := 50000) (K := 256) (N := 128) none _ _ _ q).symm
  exact Finset.sum_congr rfl fun k _ => by rw [left_blk V c t p k hp, right_blk V c t k q]

/-- An index of the result is in point `t`'s block iff its row is among the block's 5000 rows. -/
theorem mem_blk (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v52).slice (win1_2.rect t)).set ↔ _
  rw [View.set_slice_whole, Rect.mem_set_unit]
  exact Iff.rfl

/-- Every row of the result is in the block of the point numbered row / 5000. -/
theorem cover (i : S50000x128.Idx) :
    ∃ t : Fin cfg1.N, (cfg1.win 2).flush t = true ∧ i ∈ ((cfg1.win 2).blk t).view.set := by
  have hN : cfg1.N = 10 := N_1
  have hi0 : (i 0).val < 50000 := (i 0).isLt
  have hi1 : (i 1).val < 128 := (i 1).isLt
  have hlt : (i 0).val / 5000 < cfg1.N := by rw [hN]; omega
  obtain ⟨-, -, -, -, e4, e5⟩ := idx_facts ⟨(i 0).val / 5000, hlt⟩
  refine ⟨⟨(i 0).val / 5000, hlt⟩, flush1_2 _, ?_⟩
  rw [mem_blk]
  intro a
  match a with
  | ⟨0, _⟩ =>
    show win1_2.index ⟨(i 0).val / 5000, hlt⟩ (0 : Fin 2) * 5000 ≤ (i 0).val
      ∧ (i 0).val < win1_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win1_2.index ⟨(i 0).val / 5000, hlt⟩ (1 : Fin 2) * 128 ≤ (i 1).val
      ∧ (i 1).val < win1_2.index ⟨(i 0).val / 5000, hlt⟩ (1 : Fin 2) * 128 + 128
    rw [e5]
    omega

/-- THE RESULT ARRAY after the launch is the whole product of the two operand arrays as the launch finds them. -/
theorem final (c : Dev nD) : (dat1 V c).arrAt 2 cfg1.N = whole V c :=
  (dat1 V c).arrAt_eq_of_cover 2 (whole V c) (fun t _ => flushed_eq V c t) cover

end Cert.KernelIdeal.Dense1

end
-- ==== Proof.GcnLayers.lean ====
/-
  The two graph-convolution layers as functions of the dense features they aggregate.

  With h the node features after the dense transform (one row per node), s and d the source and
  destination node of every edge, and b the layer's bias, a layer computes

    deg   = 1 + (number of edges arriving at each node)          (a scatter-add of ones)
    dinv  = deg^(-1/2) where deg > 0, else 0
    norm  = dinv[s] * dinv[d]                                     (one weight per edge)
    agg   = scatter-add over edges of h[s] * norm into row d,  plus  h * dinv^2  (the self loops)
    out   = agg + b                                               (first layer: then max with 0)

  where a negative node number is first wrapped by adding the node count. Both programs apply exactly
  these host operations to their dense features; they are named here once so that the comparison of
  the two programs never has to open them.
-/
import proofs.«120215_j17669495456113_1_alg».proof.Proof.Gen.ReferenceIdeal

noncomputable section

namespace Cert.Gcn

open Cert.ReferenceIdeal Cert.ReferenceIdeal.Gen Idealize.ShloMosaic

variable {F : FTy → Type} [FloatOps F]

/-- One node number per edge. -/
abbrev Ids (F : FTy → Type) [FloatOps F] : Type := (⟨S800000, .i32⟩ : BufTy).Contents (Elt F)
/-- One float per node. -/
abbrev PerNode (F : FTy → Type) [FloatOps F] : Type := (⟨S50000, .f32⟩ : BufTy).Contents (Elt F)

/-- Row 0 of the edge list: every edge's source node. -/
def srcOf (ei : (⟨S2x800000, .i32⟩ : BufTy).Contents (Elt F)) : Ids F :=
  shapeCast _ (extractStridedSlice S1x800000 ![0, 0] ei slices_S2x800000_S1x800000_0_0) shapeCasts_S1x800000_S800000

/-- Row 1 of the edge list: every edge's destination node. -/
def dstOf (ei : (⟨S2x800000, .i32⟩ : BufTy).Contents (Elt F)) : Ids F :=
  shapeCast _ (extractStridedSlice S1x800000 ![1, 0] ei slices_S2x800000_S1x800000_1_0) shapeCasts_S1x800000_S800000

/-- A negative node number counts from the end: add the node count to it. -/
def wrap (v : Ids F) : Ids F :=
  select (cmpi .slt v (broadcastInDim S800000 ![] bcast_S_S800000 (constantI S_ 32 0#32)))
    (addi v (broadcastInDim S800000 ![] bcast_S_S800000 (constantI S_ 32 50000#32))) v

/-- The node numbers laid out as a column, the form a gather or scatter takes its indices in. -/
def asCol (v : Ids F) : (⟨S800000x1, .i32⟩ : BufTy).Contents (Elt F) :=
  broadcastInDim S800000x1 ![0] bcast_S800000_S800000x1_0 v

/-- In-degree of every node counting its self loop: a one scattered to each edge's destination, plus one. -/
def deg (d : Ids F) : PerNode F :=
  addf (Host.scatterAdd scatter_S50000_S800000x1_S800000_n_0_0_1
      (broadcastInDim S50000 ![] bcast_S_S50000 (constant S_ .f32 0x00000000#32)) (asCol d)
      (broadcastInDim S800000 ![] bcast_S_S800000 (constant S_ .f32 0x3F800000#32)))
    (broadcastInDim S50000 ![] bcast_S_S50000 (constant S_ .f32 0x3F800000#32))

/-- deg^(-1/2) where the degree is positive, zero elsewhere. -/
def dinv (d : Ids F) : PerNode F :=
  select (cmpf .ogt (deg d) (broadcastInDim S50000 ![] bcast_S_S50000 (constant S_ .f32 0x00000000#32)))
    (Host.rsqrt (deg d)) (broadcastInDim S50000 ![] bcast_S_S50000 (id (constant S_ .f32 0x00000000#32)))

/-- The weight of every edge: dinv at its source times dinv at its destination. -/
def edgeNorm (s d : Ids F) : (⟨S800000, .f32⟩ : BufTy).Contents (Elt F) :=
  mulf (Host.gather gather_S50000_S800000x1_S800000_n_0_n_n_0_1_1 (dinv d) (asCol (wrap s)))
    (Host.gather gather_S50000_S800000x1_S800000_n_0_n_n_0_1_1 (dinv d) (asCol (wrap d)))

/-- The normalized aggregation of 256-wide features: weighted rows summed into their destinations, plus the self loops. -/
def agg256 (h : (⟨S50000x256, .f32⟩ : BufTy).Contents (Elt F)) (s d : Ids F) : (⟨S50000x256, .f32⟩ : BufTy).Contents (Elt F) :=
  addf (Host.scatterAdd scatter_S50000x256_S800000x1_S800000x256_1_0_0_1
      (broadcastInDim S50000x256 ![] bcast_S_S50000x256 (constant S_ .f32 0x00000000#32)) (asCol d)
      (mulf (Host.gather gather_S50000x256_S800000x1_S800000x256_1_0_n_n_0_1_1256 h (asCol (wrap s)))
        (broadcastInDim S800000x256 ![0, 1] bcast_S800000x1_S800000x256_0_1
          (broadcastInDim S800000x1 ![0] bcast_S800000_S800000x1_0 (edgeNorm s d)))))
    (mulf h (broadcastInDim S50000x256 ![0, 1] bcast_S50000x1_S50000x256_0_1
      (broadcastInDim S50000x1 ![0] bcast_S50000_S50000x1_0 (mulf (dinv d) (dinv d)))))

/-- The first layer after its dense transform: aggregate, add the bias to every row, clamp below at zero. -/
def layer1 (h : (⟨S50000x256, .f32⟩ : BufTy).Contents (Elt F)) (s d : Ids F) (b : (⟨S256, .f32⟩ : BufTy).Contents (Elt F)) :
    (⟨S50000x256, .f32⟩ : BufTy).Contents (Elt F) :=
  maximumf (addf (agg256 h s d) (broadcastInDim S50000x256 ![0, 1] bcast_S1x256_S50000x256_0_1
      (broadcastInDim S1x256 ![1] bcast_S256_S1x256_1 b)))
    (broadcastInDim S50000x256 ![] bcast_S_S50000x256 (constant S_ .f32 0x00000000#32))

/-- The normalized aggregation of 128-wide features. -/
def agg128 (h : (⟨S50000x128, .f32⟩ : BufTy).Contents (Elt F)) (s d : Ids F) : (⟨S50000x128, .f32⟩ : BufTy).Contents (Elt F) :=
  addf (Host.scatterAdd scatter_S50000x128_S800000x1_S800000x128_1_0_0_1
      (broadcastInDim S50000x128 ![] bcast_S_S50000x128 (constant S_ .f32 0x00000000#32)) (asCol d)
      (mulf (Host.gather gather_S50000x128_S800000x1_S800000x128_1_0_n_n_0_1_1128 h (asCol (wrap s)))
        (broadcastInDim S800000x128 ![0, 1] bcast_S800000x1_S800000x128_0_1
          (broadcastInDim S800000x1 ![0] bcast_S800000_S800000x1_0 (edgeNorm s d)))))
    (mulf h (broadcastInDim S50000x128 ![0, 1] bcast_S50000x1_S50000x128_0_1
      (broadcastInDim S50000x1 ![0] bcast_S50000_S50000x1_0 (mulf (dinv d) (dinv d)))))

/-- The second layer after its dense transform: aggregate and add the bias to every row. -/
def layer2 (h : (⟨S50000x128, .f32⟩ : BufTy).Contents (Elt F)) (s d : Ids F) (b : (⟨S128, .f32⟩ : BufTy).Contents (Elt F)) :
    (⟨S50000x128, .f32⟩ : BufTy).Contents (Elt F) :=
  addf (agg128 h s d) (broadcastInDim S50000x128 ![0, 1] bcast_S1x128_S50000x128_0_1
    (broadcastInDim S1x128 ![1] bcast_S128_S1x128_1 b))

/-- The whole network: the second layer over the product with W2 of the first layer over the product of x with W1. -/
def result (x : (⟨S50000x128, .f32⟩ : BufTy).Contents (Elt F)) (ei : (⟨S2x800000, .i32⟩ : BufTy).Contents (Elt F))
    (w1 : (⟨S128x256, .f32⟩ : BufTy).Contents (Elt F)) (b1 : (⟨S256, .f32⟩ : BufTy).Contents (Elt F))
    (w2 : (⟨S256x128, .f32⟩ : BufTy).Contents (Elt F)) (b2 : (⟨S128, .f32⟩ : BufTy).Contents (Elt F)) :
    (⟨S50000x128, .f32⟩ : BufTy).Contents (Elt F) :=
  layer2 (Host.dotGeneral (DotDims.plain 50000 256 128) none
      (layer1 (Host.dotGeneral (DotDims.plain 50000 128 256) none x w1) (srcOf ei) (dstOf ei) b1) w2)
    (srcOf ei) (dstOf ei) b2

end Cert.Gcn

end
-- ==== Proof.KernelStages.lean ====
/-
  The idealized kernel's result buffer as a function of its arguments, read off the fold of its segments.

  The fold goes: launch memory, after the four operations that cut the edge list into its source and
  destination rows, after the first product launch (its result array now the product of x and W1, every
  other buffer as before), after the first layer's host operations, after the second product launch
  (its result array the product of the first layer's output and W2), after the second layer's host
  operations. Read at the result buffer, with each launch's array replaced by the product it was shown
  to hold and each buffer no later segment writes walked back to where it was written, the fold is the
  second layer over the product with W2 of the first layer over the product of x with W1.
-/
import proofs.«120215_j17669495456113_1_alg».proof.Proof.Gen.KernelIdeal.Frame
import proofs.«120215_j17669495456113_1_alg».proof.Proof.Dense0
import proofs.«120215_j17669495456113_1_alg».proof.Proof.Dense1
import proofs.«120215_j17669495456113_1_alg».proof.Proof.GcnLayers
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo

section AnyFloats

variable {F : FTy → Type} [FloatOps F]
variable (m : (ℓ : Loc nD τ sig) → Buf (Elt F) ℓ) (ρ : Dev nD → PrngReg) (c : Dev nD)

/-! ## After the first four host operations: the edge list's two rows; the arguments untouched -/

theorem W1_src : W1 m ρ c (Proc.devRef .tc main_v1) = Cert.Gcn.srcOf (m ((c.tc : Thread nD τ).loc main_arg1)) := by
  show StableHlo.after hostOps0 (W0 m ρ c) (Proc.devRef .tc main_v1) = _
  after_results_simp <;> rfl
theorem W1_dst : W1 m ρ c (Proc.devRef .tc main_v3) = Cert.Gcn.dstOf (m ((c.tc : Thread nD τ).loc main_arg1)) := by
  show StableHlo.after hostOps0 (W0 m ρ c) (Proc.devRef .tc main_v3) = _
  after_results_simp <;> rfl
theorem W1_arg0 : W1 m ρ c (Proc.devRef .tc main_arg0) = (m ((c.tc : Thread nD τ).loc main_arg0)) := by
  show StableHlo.after hostOps0 (W0 m ρ c) (Proc.devRef .tc main_arg0) = _
  after_results_simp <;> rfl
theorem W1_arg2 : W1 m ρ c (Proc.devRef .tc main_arg2) = (m ((c.tc : Thread nD τ).loc main_arg2)) := by
  show StableHlo.after hostOps0 (W0 m ρ c) (Proc.devRef .tc main_arg2) = _
  after_results_simp <;> rfl
theorem W1_arg3 : W1 m ρ c (Proc.devRef .tc main_arg3) = (m ((c.tc : Thread nD τ).loc main_arg3)) := by
  show StableHlo.after hostOps0 (W0 m ρ c) (Proc.devRef .tc main_arg3) = _
  after_results_simp <;> rfl
theorem W1_arg4 : W1 m ρ c (Proc.devRef .tc main_arg4) = (m ((c.tc : Thread nD τ).loc main_arg4)) := by
  show StableHlo.after hostOps0 (W0 m ρ c) (Proc.devRef .tc main_arg4) = _
  after_results_simp <;> rfl
theorem W1_arg5 : W1 m ρ c (Proc.devRef .tc main_arg5) = (m ((c.tc : Thread nD τ).loc main_arg5)) := by
  show StableHlo.after hostOps0 (W0 m ρ c) (Proc.devRef .tc main_arg5) = _
  after_results_simp <;> rfl

/-! ## After the first launch: its result array is the product; the other buffers are as they were -/

theorem W2_v1 : W2 m ρ c (Proc.devRef .tc main_v1) = W1 m ρ c (Proc.devRef .tc main_v1) := W2_of_ne m ρ c main_v1 (by decide)
theorem W2_v3 : W2 m ρ c (Proc.devRef .tc main_v3) = W1 m ρ c (Proc.devRef .tc main_v3) := W2_of_ne m ρ c main_v3 (by decide)
theorem W2_arg3 : W2 m ρ c (Proc.devRef .tc main_arg3) = W1 m ρ c (Proc.devRef .tc main_arg3) := W2_of_ne m ρ c main_arg3 (by decide)
theorem W2_arg4 : W2 m ρ c (Proc.devRef .tc main_arg4) = W1 m ρ c (Proc.devRef .tc main_arg4) := W2_of_ne m ρ c main_arg4 (by decide)
theorem W2_arg5 : W2 m ρ c (Proc.devRef .tc main_arg5) = W1 m ρ c (Proc.devRef .tc main_arg5) := W2_of_ne m ρ c main_arg5 (by decide)

/-! ## After the first layer's host operations -/

set_option maxHeartbeats 8000000 in
theorem W6_a1 : W6 m ρ c (Proc.devRef .tc main_v51)
    = Cert.Gcn.layer1 (W2 m ρ c (Proc.devRef .tc main_v4)) (W2 m ρ c (Proc.devRef .tc main_v1)) (W2 m ρ c (Proc.devRef .tc main_v3)) (W2 m ρ c (Proc.devRef .tc main_arg3)) := by
  show StableHlo.after hostOps1_3 (StableHlo.after hostOps1_2 (StableHlo.after hostOps1_1 (StableHlo.after hostOps1 (W2 m ρ c)))) (Proc.devRef .tc main_v51) = _
  after_results_simp <;> rfl
set_option maxHeartbeats 4000000 in
theorem W6_v1 : W6 m ρ c (Proc.devRef .tc main_v1) = W2 m ρ c (Proc.devRef .tc main_v1) := by
  show StableHlo.after hostOps1_3 (StableHlo.after hostOps1_2 (StableHlo.after hostOps1_1 (StableHlo.after hostOps1 (W2 m ρ c)))) (Proc.devRef .tc main_v1) = _
  after_results_simp <;> rfl
set_option maxHeartbeats 4000000 in
theorem W6_v3 : W6 m ρ c (Proc.devRef .tc main_v3) = W2 m ρ c (Proc.devRef .tc main_v3) := by
  show StableHlo.after hostOps1_3 (StableHlo.after hostOps1_2 (StableHlo.after hostOps1_1 (StableHlo.after hostOps1 (W2 m ρ c)))) (Proc.devRef .tc main_v3) = _
  after_results_simp <;> rfl
set_option maxHeartbeats 4000000 in
theorem W6_arg4 : W6 m ρ c (Proc.devRef .tc main_arg4) = W2 m ρ c (Proc.devRef .tc main_arg4) := by
  show StableHlo.after hostOps1_3 (StableHlo.after hostOps1_2 (StableHlo.after hostOps1_1 (StableHlo.after hostOps1 (W2 m ρ c)))) (Proc.devRef .tc main_arg4) = _
  after_results_simp <;> rfl
set_option maxHeartbeats 4000000 in
theorem W6_arg5 : W6 m ρ c (Proc.devRef .tc main_arg5) = W2 m ρ c (Proc.devRef .tc main_arg5) := by
  show StableHlo.after hostOps1_3 (StableHlo.after hostOps1_2 (StableHlo.after hostOps1_1 (StableHlo.after hostOps1 (W2 m ρ c)))) (Proc.devRef .tc main_arg5) = _
  after_results_simp <;> rfl

/-! ## After the second launch -/

theorem W7_v1 : W7 m ρ c (Proc.devRef .tc main_v1) = W6 m ρ c (Proc.devRef .tc main_v1) := W7_of_ne m ρ c main_v1 (by decide)
theorem W7_v3 : W7 m ρ c (Proc.devRef .tc main_v3) = W6 m ρ c (Proc.devRef .tc main_v3) := W7_of_ne m ρ c main_v3 (by decide)
theorem W7_arg5 : W7 m ρ c (Proc.devRef .tc main_arg5) = W6 m ρ c (Proc.devRef .tc main_arg5) := W7_of_ne m ρ c main_arg5 (by decide)

/-! ## After the second layer's host operations: the result -/

set_option maxHeartbeats 8000000 in
theorem W10_out : W10 m ρ c (Proc.devRef .tc main_v98)
    = Cert.Gcn.layer2 (W7 m ρ c (Proc.devRef .tc main_v52)) (W7 m ρ c (Proc.devRef .tc main_v1)) (W7 m ρ c (Proc.devRef .tc main_v3)) (W7 m ρ c (Proc.devRef .tc main_arg5)) := by
  show StableHlo.after hostOps2_2 (StableHlo.after hostOps2_1 (StableHlo.after hostOps2 (W7 m ρ c))) (Proc.devRef .tc main_v98) = _
  after_results_simp <;> rfl

end AnyFloats

/-! ## At the extended reals: each launch's array is its product, and the result is one function of the six arguments -/

section AtIdeal

variable (m : (ℓ : Loc nD τ sig) → Buf (Elt Ideal) ℓ) (ρ : Dev nD → PrngReg) (c : Dev nD)

theorem W2_h1 : W2 m ρ c (Proc.devRef .tc main_v4)
    = Host.dotGeneral (F := Ideal) (φ₁ := .f32) (φ₂ := .f32) (DotDims.plain 50000 128 256) none (m ((c.tc : Thread nD τ).loc main_arg0)) (m ((c.tc : Thread nD τ).loc main_arg2)) := by
  refine (W2_arr m ρ c 2).trans ((Dense0.final (V1 m ρ) c).trans ?_)
  unfold Dense0.whole
  show Host.dotGeneral (F := Ideal) (φ₁ := .f32) (φ₂ := .f32) (DotDims.plain 50000 128 256) none (W1 m ρ c (Proc.devRef .tc main_arg0)) (W1 m ρ c (Proc.devRef .tc main_arg2)) = _
  rw [W1_arg0, W1_arg2]

theorem W7_h2 : W7 m ρ c (Proc.devRef .tc main_v52)
    = Host.dotGeneral (F := Ideal) (φ₁ := .f32) (φ₂ := .f32) (DotDims.plain 50000 256 128) none (W6 m ρ c (Proc.devRef .tc main_v51)) (W6 m ρ c (Proc.devRef .tc main_arg4)) :=
  (W7_arr m ρ c 2).trans (Dense1.final (V6 m ρ) c)

theorem result_eq : W10 m ρ c (Proc.devRef .tc main_v98)
    = Cert.Gcn.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [W10_out, W7_h2, W7_v1, W7_v3, W7_arg5, W6_a1, W6_v1, W6_v3, W6_arg4, W6_arg5, W2_h1, W2_v1, W2_v3, W2_arg3,
    W2_arg4, W2_arg5, W1_src, W1_dst, W1_arg3, W1_arg4, W1_arg5]
  unfold Cert.Gcn.result
  rfl

end AtIdeal

end Cert.KernelIdeal.Stages

end
-- ==== Proof.RefValue.lean ====
/-
  The reference's result is the two layers applied to its two dense products: its run's composed
  term, read with the layers' names, is layer 2 of (layer 1 of (x . W1)) . W2.
-/
import proofs.«120215_j17669495456113_1_alg».proof.Proof.RefRunPatched
import proofs.«120215_j17669495456113_1_alg».proof.Proof.GcnLayers

noncomputable section

namespace Cert.Gcn.Ref

open Cert.ReferenceIdeal Cert.ReferenceIdeal.Gen Idealize.ShloMosaic Idealize.ShloMosaic.TcCoe Idealize.SL.Sem

variable {F : FTy → Type} [FloatOps F]

set_option maxRecDepth 16384 in
/-- The run's composed term is that function of the launch contents of the six arguments. -/
theorem res_eq (m : (ℓ : Loc nD τ sig) → Buf (Elt F) ℓ) (c : Dev nD) :
    Cert.ReferenceIdeal.ValueP.res_main_v98 m c
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v98 result layer2 layer1 agg128 agg256 edgeNorm dinv deg asCol wrap srcOf dstOf
  rfl

end Cert.Gcn.Ref

end
-- ==== Proof.lean ====
/-
  A two-layer graph convolution on 50000 nodes and 800000 edges: the kernel's program against its reference,
  equal as extended reals.

  Both programs compute, for node features x, edge list (s, d), weights W1, W2 and biases b1, b2,

      out = L2 ( L1 (x . W1) . W2 )

  where L1 and L2 are the layers' edge aggregations: degrees by a scatter-add of ones, the symmetric
  normalisation deg^(-1/2) at both ends of every edge, the weighted rows of the dense features summed into
  their destination nodes, the self loops, the bias (and for L1 the clamp at zero). The two programs spell
  L1 and L2 with the same host operations, literal for literal. They differ only in the two dense
  products: the reference takes each as one product of whole arrays, the kernel computes each on the
  matrix unit in ten blocks of 5000 rows, after rounding both operands to a narrower float format.
  On the extended reals the rounding is the identity and a block's entry (p, q) is the sum over k of
  left (5000 t + p, k) * right (k, q), the very sum that defines entry (5000 t + p, q) of the whole
  product, term for term and in the same order. So no law of arithmetic is needed beyond that reading,
  and the finiteness of the inputs is never used.

  The pieces: the whole product each launch leaves (Dense0, Dense1); the kernel's run with its result
  kept (KernelRun) and the result read as a function of the arguments (KernelStages); the layers named
  once (GcnLayers); the reference's run and its result read with the same names (RefRunPatched, RefValue).
  The kernel as printed and its idealization differ in nothing the idealizing pass rewrote, so that
  conjunct is trivial; the three frames are the generated runs.
-/
import proofs.«120215_j17669495456113_1_alg».proof.Defs
import proofs.«120215_j17669495456113_1_alg».proof.Proof.Gen.Kernel
import proofs.«120215_j17669495456113_1_alg».proof.Proof.Gen.Kernel.Skeleton
import proofs.«120215_j17669495456113_1_alg».proof.Proof.Gen.Kernel.Launch
import proofs.«120215_j17669495456113_1_alg».proof.Proof.Gen.Kernel.Points
import proofs.«120215_j17669495456113_1_alg».proof.Proof.Gen.Kernel.Frame
import proofs.«120215_j17669495456113_1_alg».proof.Proof.Gen.KernelIdeal
import proofs.«120215_j17669495456113_1_alg».proof.Proof.Gen.KernelIdeal.Skeleton
import proofs.«120215_j17669495456113_1_alg».proof.Proof.Gen.KernelIdeal.Launch
import proofs.«120215_j17669495456113_1_alg».proof.Proof.Gen.KernelIdeal.Points
import proofs.«120215_j17669495456113_1_alg».proof.Proof.Gen.KernelIdeal.Frame
import proofs.«120215_j17669495456113_1_alg».proof.Proof.Gen.ReferenceIdeal
import proofs.«120215_j17669495456113_1_alg».proof.Proof.Gen.Pre_finite_inputs
import proofs.«120215_j17669495456113_1_alg».proof.Proof.KernelRun
import proofs.«120215_j17669495456113_1_alg».proof.Proof.KernelStages
import proofs.«120215_j17669495456113_1_alg».proof.Proof.RefRunPatched
import proofs.«120215_j17669495456113_1_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the result at the same function of the arguments: the two layers over the two
    dense products. -/
theorem algebraic : Cert.algebraic_KernelIdeal_ReferenceIdeal := by
  intro m ρ m' ρ' _ hagree
  refine ⟨fun c => Cert.Gcn.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Stages.result_eq m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.ValueP.run (F := Ideal) m' ρ')
    refine (Cert.Gcn.Ref.res_eq m' c).trans ?_
    obtain ⟨h0, h1, h2, h3, h4, h5⟩ := hagree c
    rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
